-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S3200000 : Shape := ⟨1, ![3200000]⟩
abbrev S256 : Shape := ⟨1, ![256]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S256 : S_.BroadcastsInDim S256 (![] : Fin 0 → Fin S256.rank)
  reducesTo_S256_S_d0 : S256.ReducesTo [0] S_
  bcast_S_S2 : S_.BroadcastsInDim S2 (![] : Fin 0 → Fin S2.rank)
  reducesTo_S2_S_d0 : S2.ReducesTo [0] S_

variable [Facts]

def fn_part1 {F : FTy → Type} [FloatOps F] (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  main_v18

def fn {F : FTy → Type} [FloatOps F] (main_arg0 : FVec F S100000x256 .f32) (main_arg1 : FVec F S3200000 .f32) (main_arg2 : IVec S3200000 32) (main_arg3 : FVec F S256 .f32) (main_arg4 : FVec F S2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000 .f32 := Host.absf main_arg1
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S2 .f32 := Host.absf main_arg4
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_v13 main_v16
-- ==== Kernel.lean ====
abbrev S100000x256 : Shape := ⟨2, ![100000, 256]⟩
abbrev S3200000 : Shape := ⟨1, ![3200000]⟩
abbrev S256 : Shape := ⟨1, ![256]⟩
abbrev S2 : Shape := ⟨1, ![2]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S2000x256 : Shape := ⟨2, ![2000, 256]⟩
abbrev S2000x1 : Shape := ⟨2, ![2000, 1]⟩
abbrev S1 : Shape := ⟨1, ![1]⟩
abbrev S1x256 : Shape := ⟨2, ![1, 256]⟩
abbrev S2000 : Shape := ⟨1, ![2000]⟩

abbrev nBuf : Space → Nat
  | .hbm => 13
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S3200000, .f32⟩
  | .hbm, ⟨2, _⟩ => ⟨S3200000, .i32⟩
  | .hbm, ⟨3, _⟩ => ⟨S256, .f32⟩
  | .hbm, ⟨4, _⟩ => ⟨S2, .f32⟩
  | .hbm, ⟨5, _⟩ => ⟨S_, .f32⟩
  | .hbm, ⟨6, _⟩ => ⟨S100000, .f32⟩
  | .hbm, ⟨7, _⟩ => ⟨S3200000x1, .i32⟩
  | .hbm, ⟨8, _⟩ => ⟨S100000, .f32⟩
  | .hbm, ⟨9, _⟩ => ⟨S100000x1, .f32⟩
  | .hbm, ⟨10, _⟩ => ⟨S100000x256, .f32⟩
  | .hbm, ⟨11, _⟩ => ⟨S100000x1, .f32⟩
  | .hbm, ⟨12, _⟩ => ⟨S100000, .f32⟩
  | .local _ .vmem, ⟨0, _⟩ => ⟨S2000x256, .f32⟩
  | .local _ .vmem, ⟨1, _⟩ => ⟨S2000x256, .f32⟩
  | .local _ .vmem, ⟨2, _⟩ => ⟨S256, .f32⟩
  | .local _ .vmem, ⟨3, _⟩ => ⟨S2, .f32⟩
  | .local _ .vmem, ⟨4, _⟩ => ⟨S2000x1, .f32⟩
  | .local _ .vmem, ⟨5, _⟩ => ⟨S2000x1, .f32⟩
  | .local _ .vmem, ⟨6, _⟩ => ⟨S2000x256, .f32⟩
  | .local _ .vmem, ⟨7, _⟩ => ⟨S2000x256, .f32⟩
  | .local _ .vmem, ⟨8, _⟩ => ⟨S2000x1, .f32⟩
  | .local _ .vmem, ⟨9, _⟩ => ⟨S2000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S2000x256_S2000x256_0_0 : ∀ a, (![0, 0] : Fin 2 → Nat) a + S2000x256.size a ≤ S2000x256.size a
  h_S2000x256 : 0 < S2000x256.numel
  inb_S256_S256_0 : ∀ a, (![0] : Fin 1 → Nat) a + S256.size a ≤ S256.size a
  h_S256 : 0 < S256.numel
  inb_S2_S2_0 : ∀ a, (![0] : Fin 1 → Nat) a + S2.size a ≤ S2.size a
  h_S2 : 0 < S2.numel
  slices_S2_o0_S1 : S2.Slices ![0] S1
  inpos_S1_p0 : ∀ a, (![0] : Fin 1 → Nat) a < S1.size a
  slices_S2_o1_S1 : S2.Slices ![1] S1
  shapeCasts_S256_S1x256 : S256.ShapeCasts S1x256
  broadcasts_S1x256_S2000x256 : S1x256.Broadcasts S2000x256
  reduces_S2000x256_S2000 : S2000x256.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  shapeCasts_S100000x1_S100000 : S100000x1.ShapeCasts S100000
  scatter_S100000_S3200000x1_S3200000_n_0_0_1_wf : ScatterDims.WF S100000 S3200000x1 S3200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S256.size a
  hwx0_1 : ∀ i : grid0.Coords, EltTy.bits .f32 = 32 ∨ (Rect.block (s := S256) S256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2.size a ≤ S2.size a
  hwx0_2 : ∀ i : grid0.Coords, EltTy.bits .f32 = 32 ∨ (Rect.block (s := S2) S2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S100000x256.size a
  hwx0_4 : ∀ i : grid0.Coords, EltTy.bits .f32 = 32 ∨ (Rect.block (s := S100000x256) S2000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S100000x1.size a
  hwx0_5 : ∀ i : grid0.Coords, EltTy.bits .f32 = 32 ∨ (Rect.block (s := S100000x1) S2000x1.size (cc0_transform_5 i) (hinb0_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S2000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S2000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x256 : Shape := ⟨2, ![100000, 256]⟩
abbrev S3200000 : Shape := ⟨1, ![3200000]⟩
abbrev S256 : Shape := ⟨1, ![256]⟩
abbrev S2 : Shape := ⟨1, ![2]⟩
abbrev S1x256 : Shape := ⟨2, ![1, 256]⟩
abbrev S_ : Shape := ⟨0, ![]⟩
abbrev S100000 : Shape := ⟨1, ![100000]⟩
abbrev S3200000x1 : Shape := ⟨2, ![3200000, 1]⟩
abbrev S1 : Shape := ⟨1, ![1]⟩
abbrev S100000x1 : Shape := ⟨2, ![100000, 1]⟩

abbrev nBuf : Space → Nat
  | .hbm => 34
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S3200000, .f32⟩
  | .hbm, ⟨2, _⟩ => ⟨S3200000, .i32⟩
  | .hbm, ⟨3, _⟩ => ⟨S256, .f32⟩
  | .hbm, ⟨4, _⟩ => ⟨S2, .f32⟩
  | .hbm, ⟨5, _⟩ => ⟨S1x256, .f32⟩
  | .hbm, ⟨6, _⟩ => ⟨S100000x256, .f32⟩
  | .hbm, ⟨7, _⟩ => ⟨S100000x256, .f32⟩
  | .hbm, ⟨8, _⟩ => ⟨S_, .f32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S3200000x1, .i32⟩
  | .hbm, ⟨13, _⟩ => ⟨S100000, .f32⟩
  | .hbm, ⟨14, _⟩ => ⟨S1, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S1, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x256, .f32⟩
  | .hbm, ⟨33, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S100000_d1 : S100000x256.ReducesTo [1] S100000
  h_S_ : 0 < S_.numel
  bcast_S_S100000 : S_.BroadcastsInDim S100000 (![] : Fin 0 → Fin S100000.rank)
  bcast_S3200000_S3200000x1_0 : S3200000.BroadcastsInDim S3200000x1 (![0] : Fin 1 → Fin S3200000x1.rank)
  slices_S2_S1_0 : S2.Slices ![0] S1
  shapeCasts_S1_S_ : S1.ShapeCasts S_
  slices_S2_S1_1 : S2.Slices ![1] S1
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  scatter_S100000_S3200000x1_S3200000_n_0_0_1_wf : ScatterDims.WF S100000 S3200000x1 S3200000 [] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

class Facts : Prop extends Facts₀ where

variable [Facts]
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.LibLastAxisFolds.lean ====
/-
  Folds along the LAST axis of a rank-2 array at the ideal values, in the form a kernel's own text takes.

  A kernel's `vector.multi_reduction` carries two facts besides its operand: that its float type is one the
  operation is defined at, and that its accumulator is the operation's neutral word. A printed kernel states the
  first as the disjunction itself and the second as an equation between the two literal words. The lemmas here take
  the two facts in exactly that spelling, for any extents, so they rewrite a kernel's value as it stands:

  * `rowsum_fn` / `rowmax_fn`: the reduction, as a function of the row, is the sum over the row / the fold of `max`
    over the row from minus infinity. They contain no index, so `rw` can replace every reduction of a value before
    the value is read at an entry, also the ones that end up under a sum or a fold;
  * `rowsum_apply` / `rowmax_apply`: the same at a row given by its coordinate.

  With them: a one-column matrix `[a, 1]` laid out as one row `[1, a]` read at `(u, i)` is the column at `(i, 0)`, the
  counterpart of a vector laid out as a row; and square root, exponential and sigmoid of a vector read at an index.
-/
import Idealize.ShloMosaic.PureOps.Ideal.Laws
import Idealize.ShloMosaic.Lib.ValueIdx
import Idealize.ShloMosaic.Lib.Pipeline.Value

noncomputable section

namespace Cert.Lib.LastAxisFolds

open Idealize.ShloMosaic Idealize.ShloMosaic.ValueIdx

/-- A sum along the last axis from zero, read at its row: the sum over the row. -/
theorem rowsum_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => ?_
  exact congrArg src (funext fun d => Fin.ext (by match d with | ⟨0, _⟩ => rfl | ⟨1, _⟩ => rfl))

/-- A maximum along the last axis from minus infinity, read at its row: the fold of `max` over the row. -/
theorem rowmax_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun f => (Finset.univ : Finset (Fin b)).fold max (Ideal.ofBits .f32 0xFF800000#32) f) (funext fun k => ?_)
  exact congrArg src (funext fun d => Fin.ext (by match d with | ⟨0, _⟩ => rfl | ⟨1, _⟩ => rfl))

/-- The sum along the last axis as a function of the row. -/
theorem rowsum_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) :
    multiReduction .add [1] ⟨1, ![a]⟩ src 0x00000000#32 h hφ hacc = fun j => ∑ k : Fin b, src (ix2 (j 0) k) :=
  funext fun j => by
    rw [eq_ix1 j]
    exact rowsum_apply src h hφ hacc (j 0)

/-- The maximum along the last axis as a function of the row. -/
theorem rowmax_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) :
    multiReduction .maximumf [1] ⟨1, ![a]⟩ src 0xFF800000#32 h hφ hacc
      = fun j => (Finset.univ : Finset (Fin b)).fold max (Ideal.ofBits .f32 0xFF800000#32) (fun k => src (ix2 (j 0) k)) :=
  funext fun j => by
    rw [eq_ix1 j]
    exact rowmax_apply src h hφ hacc (j 0)

/-- A one-column matrix laid out as one row reads, at `(u, i)`, the column's entry in row `i`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.mul_one, Nat.add_zero, Nat.zero_add])

/-- The square root of a vector read at an index. -/
theorem sqrt_apply {s : Shape} {φ : FTy} (a : FVec Ideal s φ) (i : s.Idx) : sqrt a i = Ideal.sqrt (a i) := rfl
/-- The exponential of a vector read at an index. -/
theorem exp_apply {s : Shape} {φ : FTy} (a : FVec Ideal s φ) (i : s.Idx) : exp a i = Ideal.exp (a i) := rfl
/-- The sigmoid of a vector read at an index. -/
theorem logistic_apply {s : Shape} {φ : FTy} (a : FVec Ideal s φ) (i : s.Idx) : logistic a i = Ideal.logistic (a i) := rfl

end Cert.Lib.LastAxisFolds

end
-- ==== Proof.GateSpec.lean ====
/-
  THE GATE OF A NODE. A graph of 100000 nodes, each with 256 features `x r`; a direction `p` in feature space; two
  mixing weights `β 0`, `β 1`; and for every node the total weight `s r` of the edges that arrive at it. The gate of
  node `r` is the logistic function of the mix

      β 0 · ⟨x r, p⟩ + β 1 · s r,        ⟨x r, p⟩ = Σ_k x r k · p k,

  and the layer returns every node's features scaled by its gate, together with the gates themselves. Everything is
  read on the extended reals: the sum is the exact finite sum, the logistic function is `1 / (1 + e^(-z))` with its
  limits `0` and `1` at the infinities.
-/
import Idealize.ShloMosaic.PureOps.Ideal
import Idealize.ShloMosaic.Lib.ValueIdx

noncomputable section

namespace Cert.NodeGate

open Idealize.ShloMosaic Idealize.ShloMosaic.ValueIdx

/-- The gate of node `r`: the logistic function of `β 0` times the node's projection on `p` plus `β 1` times the
    weight arriving at the node. -/
def gate (x : FVec Ideal ⟨2, ![100000, 256]⟩ .f32) (p : FVec Ideal ⟨1, ![256]⟩ .f32) (β : FVec Ideal ⟨1, ![2]⟩ .f32)
    (s : FVec Ideal ⟨1, ![100000]⟩ .f32) (r : Fin 100000) : EReal :=
  Ideal.logistic (β (ix1 (0 : Fin 2)) * (∑ k : Fin 256, x (ix2 r k) * p (ix1 k)) + β (ix1 (1 : Fin 2)) * s (ix1 r))

/-- Every node's gate, as a vector over the nodes. -/
def gates (x : FVec Ideal ⟨2, ![100000, 256]⟩ .f32) (p : FVec Ideal ⟨1, ![256]⟩ .f32) (β : FVec Ideal ⟨1, ![2]⟩ .f32)
    (s : FVec Ideal ⟨1, ![100000]⟩ .f32) : FVec Ideal ⟨1, ![100000]⟩ .f32 := fun i => gate x p β s (i 0)

/-- The same gates laid down a column, one row per node. -/
def gateColumn (x : FVec Ideal ⟨2, ![100000, 256]⟩ .f32) (p : FVec Ideal ⟨1, ![256]⟩ .f32) (β : FVec Ideal ⟨1, ![2]⟩ .f32)
    (s : FVec Ideal ⟨1, ![100000]⟩ .f32) : FVec Ideal ⟨2, ![100000, 1]⟩ .f32 := fun j => gate x p β s (j 0)

/-- The gated features: feature `k` of node `r` times the node's gate. -/
def gated (x : FVec Ideal ⟨2, ![100000, 256]⟩ .f32) (p : FVec Ideal ⟨1, ![256]⟩ .f32) (β : FVec Ideal ⟨1, ![2]⟩ .f32)
    (s : FVec Ideal ⟨1, ![100000]⟩ .f32) : FVec Ideal ⟨2, ![100000, 256]⟩ .f32 := fun j => x j * gate x p β s (j 0)

/-- The vector of gates read at node `n`. -/
theorem gates_apply (x : FVec Ideal ⟨2, ![100000, 256]⟩ .f32) (p : FVec Ideal ⟨1, ![256]⟩ .f32) (β : FVec Ideal ⟨1, ![2]⟩ .f32)
    (s : FVec Ideal ⟨1, ![100000]⟩ .f32) (n : Fin 100000) : gates x p β s (ix1 n) = gate x p β s n := rfl

/-- The column of gates read at row `n`. -/
theorem gateColumn_apply (x : FVec Ideal ⟨2, ![100000, 256]⟩ .f32) (p : FVec Ideal ⟨1, ![256]⟩ .f32) (β : FVec Ideal ⟨1, ![2]⟩ .f32)
    (s : FVec Ideal ⟨1, ![100000]⟩ .f32) (n : Fin 100000) (u : Fin 1) : gateColumn x p β s (ix2 n u) = gate x p β s n := rfl

end Cert.NodeGate

end
-- ==== Proof.BlockGate.lean ====
/-
  ONE BLOCK OF NODES. The kernel body sees a block of 2000 nodes: their features `x0` (2000 × 256), the direction
  `x1` (256), the two mixing weights `x2`, and the weights arriving at those nodes laid down a column `x3`
  (2000 × 1). What it stores, read at coordinates: in the column of gates, at row `r`, the logistic function of
  `x2 0 · Σ_k x0 r k · x1 k + x2 1 · x3 r` — the lane sum over the 256 features is the exact finite sum, the direction
  is laid along a row and repeated down the rows, the sum is laid down a column —; and in the block of gated
  features, at `(r, k)`, the feature `x0 r k` times that row's gate (the column of gates repeated along the row).
  When row `r` of the block is node `n` of the whole arrays — same features, same arriving weight, and the block's
  direction and mixing weights the whole ones — the row's gate is node `n`'s gate, so what is stored at row `r` is the
  layer's value at node `n`.
-/
import proofs.«146523_j14044543057998_1_alg».proof.Proof.Gen.KernelIdeal.Skeleton
import proofs.«146523_j14044543057998_1_alg».proof.Proof.LibColumnLayout
import proofs.«146523_j14044543057998_1_alg».proof.Proof.LibLastAxisFolds
import proofs.«146523_j14044543057998_1_alg».proof.Proof.GateSpec
import Idealize.ShloMosaic.Lib.ValueLayout
import Idealize.ShloMosaic.Lib.Pipeline.Value
import Idealize.ShloMosaic.PureOps.Ideal.Laws

noncomputable section

namespace Cert.KernelIdeal.BlockGate

open Cert.KernelIdeal Cert.KernelIdeal.Gen Idealize.ShloMosaic Idealize.ShloMosaic.ValueIdx
open Idealize.ShloMosaic.ColumnLayout Cert.Lib.LastAxisFolds

/-- The gate the body computes for row `r` of a block, from the block's features, the direction, the two mixing
    weights and the block's column of arriving weights. -/
def rowGate (x0 : Vec Ideal S2000x256 .f32) (x1 : Vec Ideal S256 .f32) (x2 : Vec Ideal S2 .f32) (x3 : Vec Ideal S2000x1 .f32)
    (r : Fin 2000) : EReal :=
  Ideal.logistic (x2 (ix1 (0 : Fin 2)) * (∑ k : Fin 256, x0 (ix2 r k) * x1 (ix1 k)) + x2 (ix1 (1 : Fin 2)) * x3 (ix2 r (0 : Fin 1)))

/-- The stored column of gates, read at row `r`. -/
theorem gateColumn_apply (x0 : Vec Ideal S2000x256 .f32) (x1 : Vec Ideal S256 .f32) (x2 : Vec Ideal S2 .f32) (x3 : Vec Ideal S2000x1 .f32)
    (r : Fin 2000) (u : Fin 1) : k0_pay1 (F := Ideal) x0 x1 x2 x3 (ix2 r u) = rowGate x0 x1 x2 x3 r := by
  obtain rfl : u = 0 := Subsingleton.elim u 0
  have hb0 : extractAt ![0] (extractStridedSlice S1 ![0] x2 slices_S2_o0_S1) inpos_S1_p0 = x2 (ix1 (0 : Fin 2)) := by
    unfold extractAt
    exact extractStridedSlice_apply ![0] x2 slices_S2_o0_S1 _ (ix1 (0 : Fin 2)) (fun a => match a with | ⟨0, _⟩ => rfl)
  have hb1 : extractAt ![0] (extractStridedSlice S1 ![1] x2 slices_S2_o1_S1) inpos_S1_p0 = x2 (ix1 (1 : Fin 2)) := by
    unfold extractAt
    exact extractStridedSlice_apply ![1] x2 slices_S2_o1_S1 _ (ix1 (1 : Fin 2)) (fun a => match a with | ⟨0, _⟩ => rfl)
  unfold k0_pay1 rowGate
  simp only [logistic_apply, addf_apply, mulf_apply, broadcast_apply]
  rw [hb0, hb1, shapeCast_a_a1_apply, rowsum_apply, shapeCast_self]
  simp only [mulf_apply, broadcastTo_1b_ab_apply, shapeCast_a_1a_apply]

/-- The stored block of gated features, read at `(r, k)`: the feature times its row's gate. -/
theorem gatedBlock_apply (x0 : Vec Ideal S2000x256 .f32) (x1 : Vec Ideal S256 .f32) (x2 : Vec Ideal S2 .f32) (x3 : Vec Ideal S2000x1 .f32)
    (r : Fin 2000) (k : Fin 256) : k0_pay2 (F := Ideal) x0 x1 x2 x3 (ix2 r k) = x0 (ix2 r k) * rowGate x0 x1 x2 x3 r := by
  unfold k0_pay2
  simp only [mulf_apply]
  rw [broadcastTo_a1_ab_apply, gateColumn_apply]

/-- If row `r` of the block is node `n` of the whole arrays, the row's gate is the node's. -/
theorem rowGate_of_node (x0 : Vec Ideal S2000x256 .f32) (x1 : Vec Ideal S256 .f32) (x2 : Vec Ideal S2 .f32) (x3 : Vec Ideal S2000x1 .f32)
    (X : FVec Ideal ⟨2, ![100000, 256]⟩ .f32) (P : FVec Ideal ⟨1, ![256]⟩ .f32) (B : FVec Ideal ⟨1, ![2]⟩ .f32)
    (S : FVec Ideal ⟨1, ![100000]⟩ .f32) (r : Fin 2000) (n : Fin 100000)
    (h0 : ∀ k : Fin 256, x0 (ix2 r k) = X (ix2 n k)) (h1 : ∀ k : Fin 256, x1 (ix1 k) = P (ix1 k))
    (h2 : ∀ b : Fin 2, x2 (ix1 b) = B (ix1 b)) (h3 : x3 (ix2 r (0 : Fin 1)) = S (ix1 n)) :
    rowGate x0 x1 x2 x3 r = NodeGate.gate X P B S n := by
  unfold rowGate NodeGate.gate
  rw [h2 0, h2 1, h3]
  simp only [h0, h1]

/-- Then the stored column of gates, at row `r`, is the layer's column of gates at node `n`; -/
theorem gateColumn_of_node (x0 : Vec Ideal S2000x256 .f32) (x1 : Vec Ideal S256 .f32) (x2 : Vec Ideal S2 .f32) (x3 : Vec Ideal S2000x1 .f32)
    (X : FVec Ideal ⟨2, ![100000, 256]⟩ .f32) (P : FVec Ideal ⟨1, ![256]⟩ .f32) (B : FVec Ideal ⟨1, ![2]⟩ .f32)
    (S : FVec Ideal ⟨1, ![100000]⟩ .f32) (r : Fin 2000) (u : Fin 1) (n : Fin 100000)
    (h0 : ∀ k : Fin 256, x0 (ix2 r k) = X (ix2 n k)) (h1 : ∀ k : Fin 256, x1 (ix1 k) = P (ix1 k))
    (h2 : ∀ b : Fin 2, x2 (ix1 b) = B (ix1 b)) (h3 : x3 (ix2 r (0 : Fin 1)) = S (ix1 n)) :
    k0_pay1 (F := Ideal) x0 x1 x2 x3 (ix2 r u) = NodeGate.gateColumn X P B S (ix2 n u) :=
  (gateColumn_apply x0 x1 x2 x3 r u).trans (rowGate_of_node x0 x1 x2 x3 X P B S r n h0 h1 h2 h3)

/-- and the stored block of gated features, at `(r, k)`, is the layer's gated features at `(n, k)`. -/
theorem gatedBlock_of_node (x0 : Vec Ideal S2000x256 .f32) (x1 : Vec Ideal S256 .f32) (x2 : Vec Ideal S2 .f32) (x3 : Vec Ideal S2000x1 .f32)
    (X : FVec Ideal ⟨2, ![100000, 256]⟩ .f32) (P : FVec Ideal ⟨1, ![256]⟩ .f32) (B : FVec Ideal ⟨1, ![2]⟩ .f32)
    (S : FVec Ideal ⟨1, ![100000]⟩ .f32) (r : Fin 2000) (k : Fin 256) (n : Fin 100000)
    (h0 : ∀ k : Fin 256, x0 (ix2 r k) = X (ix2 n k)) (h1 : ∀ k : Fin 256, x1 (ix1 k) = P (ix1 k))
    (h2 : ∀ b : Fin 2, x2 (ix1 b) = B (ix1 b)) (h3 : x3 (ix2 r (0 : Fin 1)) = S (ix1 n)) :
    k0_pay2 (F := Ideal) x0 x1 x2 x3 (ix2 r k) = NodeGate.gated X P B S (ix2 n k) := by
  refine (gatedBlock_apply x0 x1 x2 x3 r k).trans ?_
  rw [rowGate_of_node x0 x1 x2 x3 X P B S r n h0 h1 h2 h3, h0 k]
  rfl

end Cert.KernelIdeal.BlockGate

end
-- ==== Proof.NodeBlocks.lean ====
/-
  FROM BLOCKS OF NODES TO THE WHOLE GRAPH. The grid has 50 points; point `t` works on the 2000 nodes
  `t · 2000 + r`, `r < 2000`: it is handed rows `t · 2000 …` of the features and of the column of arriving weights,
  the whole direction and both mixing weights, and writes back rows `t · 2000 …` of the gated features and of the
  column of gates. Row `r` of what it writes is the gate of node `t · 2000 + r` (and that node's features times it),
  so every point writes a block of ONE function of the whole arrays; the 50 blocks tile the 100000 rows, so after the
  last point the two arrays hold that function everywhere. The column of arriving weights is the host's: the
  scatter-add of the edge weights into the nodes, from zero, laid down a column before the region.
-/
import proofs.«146523_j14044543057998_1_alg».proof.Proof.Gen.KernelIdeal.Frame
import proofs.«146523_j14044543057998_1_alg».proof.Proof.BlockGate
import proofs.«146523_j14044543057998_1_alg».proof.Proof.GateSpec
import Idealize.ShloMosaic.Lib.Pipeline.Value
import Idealize.ShloMosaic.Lib.StableHlo.Run

set_option maxRecDepth 16384

noncomputable section

namespace Cert.KernelIdeal.NodeBlocks

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

/-- The total weight arriving at each node: the host's scatter-add of the edge weights `w` into the nodes the
    edges point at (`dst`), starting from zero. -/
def edgeSums (w : FVec Ideal S3200000 .f32) (dst : IVec S3200000 32) : FVec Ideal S100000 .f32 :=
  Host.scatterAdd scatter_S100000_S3200000x1_S3200000_n_0_0_1
    (broadcastInDim S100000 ![] bcast_S_S100000 (constant S_ .f32 0x00000000#32))
    (broadcastInDim S3200000x1 ![0] bcast_S3200000_S3200000x1_0 dst) w

variable (m : (ℓ : Loc nD τ sig) → Buf (Elt Ideal) ℓ)

theorem zeros2 : (![0, 0] : Fin 2 → Nat) = fun _ => 0 := funext fun a => by fin_cases a <;> rfl
theorem zeros1 : (![0] : Fin 1 → Nat) = fun _ => 0 := funext fun a => by fin_cases a <;> rfl

/-- The column of arriving weights as the region finds it: the edge sums laid down a column by the host. -/
theorem entry_column (c : Dev nD) :
    V m c (Pipeline.arrRef spec0 3)
      = shapeCast S100000x1 (edgeSums (m ((c : Thread nD τ).loc main_arg1)) (m ((c : Thread nD τ).loc main_arg2))) shapeCasts_S100000_S100000x1 := by
  show StableHlo.after hostOps0 (fun b => m (c, b)) (Proc.devRef .tc main_v3) = _
  after_results
  rfl

/-- Where each window's block sits at point `t`: the four row-blocked windows at block row `t`, the direction and the
    mixing weights whole. Decided over the 50 points. -/
theorem block_rows : ∀ t : Fin cfg0.N,
    win0_0.index t (0 : Fin 2) = t.val ∧ win0_0.index t (1 : Fin 2) = 0
    ∧ win0_1.index t (0 : Fin 1) = 0 ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem points : cfg0.N = 50 := N_0

/-- Node `t · 2000 + r`: row `r` of point `t`'s block. -/
def node (t : Fin cfg0.N) (r : Fin 2000) : Fin 100000 :=
  ⟨t.val * 2000 + r.val, by have h : t.val < 50 := lt_of_lt_of_eq t.isLt points; have := r.isLt; omega⟩

/-! ## What each point is handed -/

/-- Row `r` of point `t`'s block of features is node `t · 2000 + r`'s. -/
theorem features_block (c : Dev nD) (t : Fin cfg0.N) (r : Fin 2000) (k : Fin 256) :
    iblk m c 0 t (ix2 r k) = m ((c : Thread nD τ).loc main_arg0) (ix2 (node t r) k) := by
  obtain ⟨e0, e1, -⟩ := block_rows t
  refine Eq.trans ?_ (congrFun (V_main_arg0 m c) (ix2 (node t r) k))
  show V m c main_arg0 (((cfg0.win 0).blk t).view.emb (ix2 r k)) = V m c main_arg0 _
  refine congrArg (V m c main_arg0) (funext fun a => Fin.ext ?_)
  match a with
  | ⟨0, _⟩ => show win0_0.index t (0 : Fin 2) * 2000 + 1 * r.val = t.val * 2000 + r.val; omega
  | ⟨1, _⟩ => show win0_0.index t (1 : Fin 2) * 256 + 1 * k.val = k.val; omega

/-- Every point is handed the whole direction. -/
theorem direction_block (c : Dev nD) (t : Fin cfg0.N) (k : Fin 256) :
    iblk m c 1 t (ix1 k) = m ((c : Thread nD τ).loc main_arg3) (ix1 k) := by
  obtain ⟨-, -, e2, -⟩ := block_rows t
  refine Eq.trans ?_ (congrFun (V_main_arg3 m c) (ix1 k))
  show V m c main_arg3 (((cfg0.win 1).blk t).view.emb (ix1 k)) = V m c main_arg3 _
  refine congrArg (V m c main_arg3) (funext fun a => Fin.ext ?_)
  match a with
  | ⟨0, _⟩ => show win0_1.index t (0 : Fin 1) * 256 + 1 * k.val = k.val; omega

/-- Every point is handed both mixing weights. -/
theorem mixing_block (c : Dev nD) (t : Fin cfg0.N) (b : Fin 2) :
    iblk m c 2 t (ix1 b) = m ((c : Thread nD τ).loc main_arg4) (ix1 b) := by
  obtain ⟨-, -, -, e3, -⟩ := block_rows t
  refine Eq.trans ?_ (congrFun (V_main_arg4 m c) (ix1 b))
  show V m c main_arg4 (((cfg0.win 2).blk t).view.emb (ix1 b)) = V m c main_arg4 _
  refine congrArg (V m c main_arg4) (funext fun a => Fin.ext ?_)
  match a with
  | ⟨0, _⟩ => show win0_2.index t (0 : Fin 1) * 2 + 1 * b.val = b.val; omega

/-- Row `r` of point `t`'s block of any column over the nodes is the column's row `t · 2000 + r`. -/
theorem read_arriving (t : Fin cfg0.N) (G : FVec Ideal ⟨2, ![100000, 1]⟩ .f32) (r : Fin 2000) (u : Fin 1) :
    ((cfg0.win 3).blk t).view.read (Elt Ideal) G (ix2 r u) = G (ix2 (node t r) u) := by
  obtain ⟨-, -, -, -, e4, e5, -⟩ := block_rows t
  show G (((cfg0.win 3).blk t).view.emb (ix2 r u)) = G _
  refine congrArg G (funext fun a => Fin.ext ?_)
  match a with
  | ⟨0, _⟩ => show win0_3.index t (0 : Fin 2) * 2000 + 1 * r.val = t.val * 2000 + r.val; omega
  | ⟨1, _⟩ => show win0_3.index t (1 : Fin 2) * 1 + 1 * u.val = u.val; omega

/-- Row `r` of point `t`'s block of arriving weights is the edge sum at node `t · 2000 + r`. -/
theorem arriving_block (c : Dev nD) (t : Fin cfg0.N) (r : Fin 2000) :
    iblk m c 3 t (ix2 r (0 : Fin 1))
      = edgeSums (m ((c : Thread nD τ).loc main_arg1)) (m ((c : Thread nD τ).loc main_arg2)) (ix1 (node t r)) := by
  unfold iblk
  rw [entry_column m c]
  refine (read_arriving t _ r 0).trans ?_
  exact ColumnLayout.shapeCast_a_a1_apply _ _ (node t r) 0

/-! ## The layer's values on the launched arrays -/

/-- The gated features of the launched arrays, -/
def gatedOf (c : Dev nD) : FVec Ideal ⟨2, ![100000, 256]⟩ .f32 :=
  NodeGate.gated (m ((c : Thread nD τ).loc main_arg0)) (m ((c : Thread nD τ).loc main_arg3)) (m ((c : Thread nD τ).loc main_arg4))
    (edgeSums (m ((c : Thread nD τ).loc main_arg1)) (m ((c : Thread nD τ).loc main_arg2)))

/-- their gates down a column, -/
def gateColumnOf (c : Dev nD) : FVec Ideal ⟨2, ![100000, 1]⟩ .f32 :=
  NodeGate.gateColumn (m ((c : Thread nD τ).loc main_arg0)) (m ((c : Thread nD τ).loc main_arg3)) (m ((c : Thread nD τ).loc main_arg4))
    (edgeSums (m ((c : Thread nD τ).loc main_arg1)) (m ((c : Thread nD τ).loc main_arg2)))

/-- and their gates as a vector. -/
def gatesOf (c : Dev nD) : FVec Ideal ⟨1, ![100000]⟩ .f32 :=
  NodeGate.gates (m ((c : Thread nD τ).loc main_arg0)) (m ((c : Thread nD τ).loc main_arg3)) (m ((c : Thread nD τ).loc main_arg4))
    (edgeSums (m ((c : Thread nD τ).loc main_arg1)) (m ((c : Thread nD τ).loc main_arg2)))

/-! ## The gated features: window 4 -/

/-- What is written back is what the body stored (the blocks tile the array: nothing is cut off). -/
theorem written_gated (t : Fin cfg0.N) (X : Vec Ideal S2000x256 .f32) (r : Fin 2000) (k : Fin 256) :
    (cfg0.win 4).cut (grid0.coords t) X (ix2 r k) = X (ix2 r k) := rfl

/-- Row `r` of point `t`'s block of the result is row `t · 2000 + r` of the result. -/
theorem read_gated (t : Fin cfg0.N) (G : FVec Ideal ⟨2, ![100000, 256]⟩ .f32) (r : Fin 2000) (k : Fin 256) :
    ((cfg0.win 4).blk t).view.read (Elt Ideal) G (ix2 r k) = G (ix2 (node t r) k) := by
  obtain ⟨-, -, -, -, -, -, e6, e7, -⟩ := block_rows t
  show G (((cfg0.win 4).blk t).view.emb (ix2 r k)) = G _
  refine congrArg G (funext fun a => Fin.ext ?_)
  match a with
  | ⟨0, _⟩ => show win0_4.index t (0 : Fin 2) * 2000 + 1 * r.val = t.val * 2000 + r.val; omega
  | ⟨1, _⟩ => show win0_4.index t (1 : Fin 2) * 256 + 1 * k.val = k.val; omega

/-- WHAT POINT `t` WRITES BACK is block `t` of the gated features of the launched arrays. -/
theorem flushed_gated (c : Dev nD) (t : Fin cfg0.N) :
    (dats m 0 c).flushed 4 t = ((cfg0.win 4).blk t).view.read (Elt Ideal) (gatedOf m c) := by
  show (cfg0.win 4).cut (grid0.coords t) ((dats m 0 c).after 4 t) = _
  rw [after0_4]
  unfold out0_4
  rw [View.canon_unit_zero zeros2]
  simp only [View.ld_unit_zero (S := S2000x256) zeros2, View.ld_unit_zero (S := S256) zeros1, View.ld_unit_zero (S := S2) zeros1,
    View.ld_unit_zero (S := S2000x1) zeros2]
  funext j
  obtain ⟨r, k, rfl⟩ : ∃ (r : Fin 2000) (k : Fin 256), j = ix2 r k := ⟨j 0, j 1, eq_ix2 j⟩
  exact ((written_gated t _ r k).trans (BlockGate.gatedBlock_of_node (iblk m c 0 t) (iblk m c 1 t) (iblk m c 2 t) (iblk m c 3 t)
      _ _ _ _ r k (node t r) (features_block m c t r) (direction_block m c t) (mixing_block m c t) (arriving_block m c t r))).trans
    (read_gated t (gatedOf m c) r k).symm

/-- An index of the result is in point `t`'s block iff each coordinate is in the block's range on its axis. -/
theorem mem_gated (t : Fin cfg0.N) (i : S100000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v4_0).slice (win0_4.rect t)).set ↔ _
  rw [View.set_slice_whole, Rect.mem_set_unit]
  exact Iff.rfl

/-- Row `n` is written by point `n / 2000`: the blocks tile the rows. -/
theorem covered_gated (i : S100000x256.Idx) :
    ∃ t : Fin cfg0.N, (cfg0.win 4).flush t = true ∧ i ∈ ((cfg0.win 4).blk t).view.set := by
  have hi0 : (i 0).val < 100000 := (i 0).isLt
  have hi1 : (i 1).val < 256 := (i 1).isLt
  obtain ⟨t, ht⟩ : ∃ t : Fin cfg0.N, t.val = (i 0).val / 2000 :=
    ⟨⟨(i 0).val / 2000, lt_of_lt_of_eq (by omega : (i 0).val / 2000 < 50) points.symm⟩, rfl⟩
  obtain ⟨-, -, -, -, -, -, e6, e7, -⟩ := block_rows t
  refine ⟨t, flush0_4 t, ?_⟩
  rw [mem_gated]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 256 ≤ (i 1).val ∧ (i 1).val < win0_4.index t (1 : Fin 2) * 256 + 256; omega

/-- THE GATED FEATURES after the run. -/
theorem final_gated (c : Dev nD) : (dats m 0 c).arrAt 4 cfg0.N = gatedOf m c :=
  (dats m 0 c).arrAt_eq_of_cover 4 (gatedOf m c) (fun t _ => flushed_gated m c t) covered_gated

/-! ## The column of gates: window 5 -/

theorem written_gates (t : Fin cfg0.N) (X : Vec Ideal S2000x1 .f32) (r : Fin 2000) (u : Fin 1) :
    (cfg0.win 5).cut (grid0.coords t) X (ix2 r u) = X (ix2 r u) := rfl

/-- Row `r` of point `t`'s block of the column is the column's row `t · 2000 + r`. -/
theorem read_gates (t : Fin cfg0.N) (G : FVec Ideal ⟨2, ![100000, 1]⟩ .f32) (r : Fin 2000) (u : Fin 1) :
    ((cfg0.win 5).blk t).view.read (Elt Ideal) G (ix2 r u) = G (ix2 (node t r) u) := by
  obtain ⟨-, -, -, -, -, -, -, -, e8, e9⟩ := block_rows t
  show G (((cfg0.win 5).blk t).view.emb (ix2 r u)) = G _
  refine congrArg G (funext fun a => Fin.ext ?_)
  match a with
  | ⟨0, _⟩ => show win0_5.index t (0 : Fin 2) * 2000 + 1 * r.val = t.val * 2000 + r.val; omega
  | ⟨1, _⟩ => show win0_5.index t (1 : Fin 2) * 1 + 1 * u.val = u.val; omega

/-- WHAT POINT `t` WRITES BACK is block `t` of the column of gates of the launched arrays. -/
theorem flushed_gates (c : Dev nD) (t : Fin cfg0.N) :
    (dats m 0 c).flushed 5 t = ((cfg0.win 5).blk t).view.read (Elt Ideal) (gateColumnOf m c) := by
  show (cfg0.win 5).cut (grid0.coords t) ((dats m 0 c).after 5 t) = _
  rw [after0_5]
  unfold out0_5
  rw [View.canon_unit_zero zeros2]
  simp only [View.ld_unit_zero (S := S2000x256) zeros2, View.ld_unit_zero (S := S256) zeros1, View.ld_unit_zero (S := S2) zeros1,
    View.ld_unit_zero (S := S2000x1) zeros2]
  funext j
  obtain ⟨r, u, rfl⟩ : ∃ (r : Fin 2000) (u : Fin 1), j = ix2 r u := ⟨j 0, j 1, eq_ix2 j⟩
  exact ((written_gates t _ r u).trans (BlockGate.gateColumn_of_node (iblk m c 0 t) (iblk m c 1 t) (iblk m c 2 t) (iblk m c 3 t)
      _ _ _ _ r u (node t r) (features_block m c t r) (direction_block m c t) (mixing_block m c t) (arriving_block m c t r))).trans
    (read_gates t (gateColumnOf m c) r u).symm

theorem mem_gates (t : Fin cfg0.N) (i : S100000x1.Idx) :
    i ∈ ((cfg0.win 5).blk t).view.set ↔ ∀ a : Fin 2, win0_5.index t a * S2000x1.size a ≤ (i a).val ∧ (i a).val < win0_5.index t a * S2000x1.size a + S2000x1.size a := by
  show i ∈ ((View.whole main_v4_1).slice (win0_5.rect t)).set ↔ _
  rw [View.set_slice_whole, Rect.mem_set_unit]
  exact Iff.rfl

theorem covered_gates (i : S100000x1.Idx) :
    ∃ t : Fin cfg0.N, (cfg0.win 5).flush t = true ∧ i ∈ ((cfg0.win 5).blk t).view.set := by
  have hi0 : (i 0).val < 100000 := (i 0).isLt
  have hi1 : (i 1).val < 1 := (i 1).isLt
  obtain ⟨t, ht⟩ : ∃ t : Fin cfg0.N, t.val = (i 0).val / 2000 :=
    ⟨⟨(i 0).val / 2000, lt_of_lt_of_eq (by omega : (i 0).val / 2000 < 50) points.symm⟩, rfl⟩
  obtain ⟨-, -, -, -, -, -, -, -, e8, e9⟩ := block_rows t
  refine ⟨t, flush0_5 t, ?_⟩
  rw [mem_gates]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 1 ≤ (i 1).val ∧ (i 1).val < win0_5.index t (1 : Fin 2) * 1 + 1; omega

/-- THE COLUMN OF GATES after the run. -/
theorem final_gates (c : Dev nD) : (dats m 0 c).arrAt 5 cfg0.N = gateColumnOf m c :=
  (dats m 0 c).arrAt_eq_of_cover 5 (gateColumnOf m c) (fun t _ => flushed_gates m c t) covered_gates

end Cert.KernelIdeal.NodeBlocks

end
-- ==== Proof.LibColumnVector.lean ====
/-
  A COLUMN READ BACK AS A VECTOR. A one-column matrix `[a, 1]` reshaped to the vector `[a]` reads, at `i`, the
  column's entry in row `i`: the two row-major positions are `i * 1 + 0` and `i`. For any element type and any
  extent; the inverse of laying a vector down a column.
-/
import Idealize.ShloMosaic.Lib.Pipeline.Value
import Idealize.ShloMosaic.Lib.ValueIdx

namespace Cert.Lib.ColumnVector

open Idealize.ShloMosaic Idealize.ShloMosaic.ValueIdx

/-- A column `[a, 1]` cast to the vector `[a]` reads, at `i`, the column at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib.ColumnVector
-- ==== Proof.KernelRun.lean ====
/-
  THE KERNEL'S RUN, READ. After the fifty points the region's two arrays hold the gated features and the column of
  gates of the launched arrays; the host then reshapes the column to a vector, entry `n` the gate of node `n`. So
  every weakly fair execution ends with the first result at the gated features, the second at the vector of gates,
  and the five arguments as launched.
-/
import proofs.«146523_j14044543057998_1_alg».proof.Proof.NodeBlocks
import proofs.«146523_j14044543057998_1_alg».proof.Proof.LibColumnVector

set_option maxRecDepth 16384

noncomputable section

namespace Cert.KernelIdeal.GateRun

open Cert.KernelIdeal Cert.KernelIdeal.Gen Cert.KernelIdeal.NodeBlocks Idealize.ShloMosaic Idealize.ShloMosaic.TcCoe
open Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The column of gates reshaped to a vector is the vector of gates. -/
theorem column_as_vector (c : Dev nD) :
    shapeCast S100000 (gateColumnOf m c) shapeCasts_S100000x1_S100000 = gatesOf m c := by
  funext i
  obtain ⟨n, rfl⟩ : ∃ n : Fin 100000, i = ix1 n := ⟨i 0, eq_ix1 i⟩
  refine (Cert.Lib.ColumnVector.shapeCast_a1_a_apply _ _ n).trans ?_
  unfold gateColumnOf gatesOf
  rw [NodeGate.gateColumn_apply, NodeGate.gates_apply]

/-- What the host's last line leaves in the second result: the vector of gates. -/
theorem gates_tail (c : Dev nD) :
    Pipeline.afterTail₀ cfgs (dats m) 0 (V0 m) [hostOps1] c main_v5 = gatesOf m c := by
  have hw : Pipeline.withArrays (cfgs 0).spec c (V0 m c) (fun w => (dats m 0 c).arrAt w (cfgs 0).N) (Proc.devRef .tc main_v4_1)
      = gateColumnOf m c :=
    (Pipeline.withArrays_arr spec0 launch0.win.arr_inj c (V0 m c) (fun w => (dats m 0 c).arrAt w cfg0.N) 5).trans (final_gates m c)
  unfold Pipeline.afterTail₀
  show StableHlo.after hostOps1 _ (Proc.devRef .tc main_v5) = _
  after_results
  exact (congrArg (fun z => shapeCast S100000 z shapeCasts_S100000x1_S100000) hw).trans (column_as_vector m c)

/-- THE RUN: every weakly fair execution of the kernel's program ends with the first result at the gated features,
    the second at the vector of gates, and the arguments as launched. -/
theorem run : θ_run defs (onTc (τ := τ) (main (F := Ideal))) ⟨m, fun _ => 0, ρ⟩ fun r => ∀ c : Dev nD,
      r.2.mem ((c.tc : Thread nD τ).loc main_v4_0) = gatedOf m c
      ∧ r.2.mem ((c.tc : Thread nD τ).loc main_v5) = gatesOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 4).trans (final_gated m c),
      ((h c).2 main_v5 (Pipeline.mem_restRefs_of main_v5 (by decide) (by decide))).trans (gates_tail m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c)))⟩)
    (run_main m ρ)

end Cert.KernelIdeal.GateRun

end
-- ==== Proof.ReferenceGates.lean ====
/-
  THE REFERENCE COMPUTES THE GATES. Read one operation at a time, the reference's second result is, at node `r`,
  `1 / (1 + e^(-z))` with `z = β 0 · (0 + Σ_k x r k · p k) + β 1 · s r` — the host's sum over the feature axis starts
  from the word zero, the two ones are the word `1.0`, and `s` is the host's scatter-add of the edge weights into the
  nodes —, which is the logistic function of `z` by that function's definition on the extended reals; its first
  result is the features times that value, the gates laid down a column and repeated along the row.
-/
import proofs.«146523_j14044543057998_1_alg».proof.Proof.Gen.ReferenceIdeal.Read
import proofs.«146523_j14044543057998_1_alg».proof.Proof.GateSpec
import Idealize.ShloMosaic.Lib.IdealHost

noncomputable section

namespace Cert.ReferenceIdeal.GateValue

open Cert.ReferenceIdeal Cert.ReferenceIdeal.Gen Cert.ReferenceIdeal.Read Idealize.ShloMosaic Idealize.ShloMosaic.ValueIdx

theorem features_idx (r : Fin 100000) (k : Fin 256) : idx_main_v3 (ix1 r) k = ix2 r k :=
  funext fun a => Fin.ext (by match a with | ⟨0, _⟩ => rfl | ⟨1, _⟩ => rfl)

theorem direction_idx (r : Fin 100000) (k : Fin 256) : idx_main_v0 (idx_main_v1 (ix2 r k)) = ix1 k :=
  funext fun a => Fin.ext (by match a with | ⟨0, _⟩ => rfl)

theorem mixing0_idx : idx_main_v7 (ix1 (0 : Fin 1)) = ix1 (0 : Fin 2) :=
  funext fun a => Fin.ext (by match a with | ⟨0, _⟩ => rfl)

theorem mixing1_idx : idx_main_v11 (ix1 (0 : Fin 1)) = ix1 (1 : Fin 2) :=
  funext fun a => Fin.ext (by match a with | ⟨0, _⟩ => rfl)

theorem row_idx (r : Fin 100000) (k : Fin 256) : idx_main_v22 (idx_main_v23 (ix2 r k)) = ix1 r :=
  funext fun a => Fin.ext (by match a with | ⟨0, _⟩ => rfl)

/-- The first mixing weight, sliced out and reshaped to a scalar, is `β 0`. -/
theorem mixing0 (x4 : FVec Ideal S2 .f32) (i : S_.Idx) : val_main_v8 (F := Ideal) x4 i = x4 (ix1 (0 : Fin 2)) := by
  unfold val_main_v8
  refine (shapeCast_apply (val_main_v7 (F := Ideal) x4) shapeCasts_S1_S_ i (ix1 (0 : Fin 1)) rfl).trans ?_
  rw [val_main_v7_apply, mixing0_idx]

/-- The second, likewise, is `β 1`. -/
theorem mixing1 (x4 : FVec Ideal S2 .f32) (i : S_.Idx) : val_main_v12 (F := Ideal) x4 i = x4 (ix1 (1 : Fin 2)) := by
  unfold val_main_v12
  refine (shapeCast_apply (val_main_v11 (F := Ideal) x4) shapeCasts_S1_S_ i (ix1 (0 : Fin 1)) rfl).trans ?_
  rw [val_main_v11_apply, mixing1_idx]

/-- The reference's gates are the gates, with the arriving weights the host's scatter-add. -/
theorem gates_eq (x0 : FVec Ideal S100000x256 .f32) (x1 : FVec Ideal S3200000 .f32) (x2 : IVec S3200000 32) (x3 : FVec Ideal S256 .f32)
    (x4 : FVec Ideal S2 .f32) :
    val_main_v21 (F := Ideal) x0 x1 x2 x3 x4 = NodeGate.gates x0 x3 x4 (val_main_v6 (F := Ideal) x1 x2) := by
  funext i
  obtain ⟨r, rfl⟩ : ∃ r : Fin 100000, i = ix1 r := ⟨i 0, eq_ix1 i⟩
  rw [val_main_v21_apply, val_main_v20_apply, val_main_cst_2_apply, val_main_v19_apply, val_main_v18_apply, val_main_cst_1_apply,
    val_main_v17_apply, val_main_v16_apply, val_main_v15_apply, val_main_v10_apply, val_main_v9_apply, mixing0, val_main_v3_apply,
    val_main_cst_apply, val_main_v14_apply, val_main_v13_apply, mixing1]
  simp only [val_main_v2_apply, val_main_v1_apply, val_main_v0_apply, features_idx, direction_idx,
    Ideal.ofBits_def, Ideal.ofBits_zero_f32, Ideal.ofBits_one_f32, zero_add, Ideal.hostDivf_def, Ideal.addf_def, Ideal.mulf_def,
    Ideal.hostUnary_exp_def, Ideal.hostNegf_def, Ideal.negf_def]
  rfl

/-- The reference's gated features are the gated features. -/
theorem gated_eq (x0 : FVec Ideal S100000x256 .f32) (x1 : FVec Ideal S3200000 .f32) (x2 : IVec S3200000 32) (x3 : FVec Ideal S256 .f32)
    (x4 : FVec Ideal S2 .f32) :
    val_main_v24 (F := Ideal) x0 x1 x2 x3 x4 = NodeGate.gated x0 x3 x4 (val_main_v6 (F := Ideal) x1 x2) := by
  funext j
  obtain ⟨r, k, rfl⟩ : ∃ (r : Fin 100000) (k : Fin 256), j = ix2 r k := ⟨j 0, j 1, eq_ix2 j⟩
  rw [val_main_v24_apply, val_main_v23_apply, val_main_v22_apply, row_idx, gates_eq]
  rfl

end Cert.ReferenceIdeal.GateValue

end
-- ==== Proof.lean ====
/-
  A GATED GRAPH LAYER: kernel against reference, on the extended reals.

  Both programs compute, for 100000 nodes with 256 features each, the gate of every node — the logistic function of
  `β 0 · ⟨x r, p⟩ + β 1 · s r`, where `s r` is the total weight of the edges arriving at node `r` — and return the
  features scaled by the gates together with the gates. They differ only in arrangement. The kernel's program first
  sums the edge weights into the nodes on the host and lays the sums down a column; then fifty grid points each take
  2000 nodes, sum `x r k · p k` over the feature lanes, apply the logistic function as ONE operation, and write back
  their rows of the gated features and of the column of gates; the host reshapes the column to a vector. The reference
  works on whole arrays: a host sum over the feature axis starting from zero, the same scatter-add of the edge weights,
  and the logistic function spelt `1 / (1 + e^(-z))`.

  On the extended reals these are one function: a lane sum and a host sum from zero are the same finite sum; the
  logistic operation IS `1 / (1 + e^(-z))`, limits at the infinities included, by its definition; the scatter-add is
  the same operation of the same operands on both sides and is never opened; the fifty blocks of 2000 rows tile the
  100000 rows. No law used needs the inputs to be finite, so the precondition is never opened. The pass that
  idealizes the kernel rewrote nothing, so the kernel's idealization claim is trivially true.
-/
import proofs.«146523_j14044543057998_1_alg».proof.Defs
import proofs.«146523_j14044543057998_1_alg».proof.Proof.Gen.Kernel
import proofs.«146523_j14044543057998_1_alg».proof.Proof.Gen.Kernel.Frame
import proofs.«146523_j14044543057998_1_alg».proof.Proof.Gen.KernelIdeal
import proofs.«146523_j14044543057998_1_alg».proof.Proof.Gen.KernelIdeal.Frame
import proofs.«146523_j14044543057998_1_alg».proof.Proof.Gen.ReferenceIdeal
import proofs.«146523_j14044543057998_1_alg».proof.Proof.Gen.Pre_finite_inputs
import proofs.«146523_j14044543057998_1_alg».proof.Proof.Gen.ReferenceIdeal.Run
import proofs.«146523_j14044543057998_1_alg».proof.Proof.Gen.ReferenceIdeal.Read
import proofs.«146523_j14044543057998_1_alg».proof.Proof.KernelRun
import proofs.«146523_j14044543057998_1_alg».proof.Proof.ReferenceGates
import Idealize.ShloMosaic.Adequacy
import Idealize.ShloMosaic.Init

noncomputable section

namespace Cert.Proof

open Idealize.ShloMosaic Idealize.ShloMosaic.TcCoe Idealize.SL.Sem

/-- The two programs sum the edge weights into the nodes by the same operation of the same operands. -/
theorem edgeSums_eq (w : FVec Ideal Cert.ReferenceIdeal.S3200000 .f32) (dst : IVec Cert.ReferenceIdeal.S3200000 32) :
    Cert.ReferenceIdeal.Read.val_main_v6 (F := Ideal) w dst = Cert.KernelIdeal.NodeBlocks.edgeSums w dst := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The kernel's run ends at the gated features and the gates of its arguments; the reference's run ends at its
    composed term of its arguments, which read one operation at a time is the same two functions; the arguments
    agree. -/
theorem algebraic : Cert.algebraic_KernelIdeal_ReferenceIdeal := by
  intro m ρ m' ρ' _ hagree
  refine ⟨fun c => Cert.KernelIdeal.NodeBlocks.gatedOf m c, fun c => Cert.KernelIdeal.NodeBlocks.gatesOf m c,
    Cert.KernelIdeal.GateRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v24_eq _ _ _ _ _).trans ((Cert.ReferenceIdeal.GateValue.gated_eq _ _ _ _ _).trans ?_)
    rw [edgeSums_eq, (hagree c).1, (hagree c).2.1, (hagree c).2.2.1, (hagree c).2.2.2.1, (hagree c).2.2.2.2]
    rfl
  · refine (Cert.ReferenceIdeal.Read.val_main_v21_eq _ _ _ _ _).trans ((Cert.ReferenceIdeal.GateValue.gates_eq _ _ _ _ _).trans ?_)
    rw [edgeSums_eq, (hagree c).1, (hagree c).2.1, (hagree c).2.2.1, (hagree c).2.2.2.1, (hagree c).2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
